-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S64x64 : Shape := ⟨2, ![64, 64]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8x3x1024x1024 .f32) (main_arg1 : FVec F S64x64 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S8x3x1024x1024 : Shape := ⟨4, ![8, 3, 1024, 1024]⟩
abbrev S64x64 : Shape := ⟨2, ![64, 64]⟩
abbrev S98304x256 : Shape := ⟨2, ![98304, 256]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8192x256 : Shape := ⟨2, ![8192, 256]⟩

abbrev nBuf : Space → Nat
  | .hbm => 18
  | .vmem => 5
  | .smem => 0
  | _ => 0

abbrev bufTy : (tb : Table) → Fin (tcTables nBuf tb) → BufTy
  | .hbm, ⟨0, _⟩ => ⟨S8x3x1024x1024, .f32⟩
  | .hbm, ⟨1, _⟩ => ⟨S64x64, .f32⟩
  | .hbm, ⟨2, _⟩ => ⟨S98304x256, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S1x64x1x64, .f32⟩
  | .hbm, ⟨12, _⟩ => ⟨S4x64x4x64, .f32⟩
  | .hbm, ⟨13, _⟩ => ⟨S4x64x4x64, .f32⟩
  | .hbm, ⟨14, _⟩ => ⟨S4x64x4x64, .f32⟩
  | .hbm, ⟨15, _⟩ => ⟨S256x256, .f32⟩
  | .hbm, ⟨16, _⟩ => ⟨S98304x256, .f32⟩
  | .hbm, ⟨17, _⟩ => ⟨S8x3x1024x1024, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S8192x256, .f32⟩
  | .local _ .vmem, ⟨4, _⟩ => ⟨S8192x256, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x3x1024x1024_S98304x256 : S8x3x1024x1024.ShapeCasts S98304x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S64x64_S1x64x1x64_1_3 : S64x64.BroadcastsInDim S1x64x1x64 (![1, 3] : Fin 2 → Fin S1x64x1x64.rank)
  bcast_S4x1x4x1_S4x64x4x64_0_1_2_3 : S4x1x4x1.BroadcastsInDim S4x64x4x64 (![0, 1, 2, 3] : Fin 4 → Fin S4x64x4x64.rank)
  bcast_S1x64x1x64_S4x64x4x64_0_1_2_3 : S1x64x1x64.BroadcastsInDim S4x64x4x64 (![0, 1, 2, 3] : Fin 4 → Fin S4x64x4x64.rank)
  shapeCasts_S4x64x4x64_S256x256 : S4x64x4x64.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S98304x256_S8x3x1024x1024 : S98304x256.ShapeCasts S8x3x1024x1024
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S98304x256.size a
  hwx0_0 : ∀ i : grid0.Coords, EltTy.bits .f32 = 32 ∨ (Rect.block (s := S98304x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S98304x256.size a
  hwx0_2 : ∀ i : grid0.Coords, EltTy.bits .f32 = 32 ∨ (Rect.block (s := S98304x256) S8192x256.size (cc0_transform_2 i) (hinb0_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S64x64 : Shape := ⟨2, ![64, 64]⟩
abbrev S8x49152x64 : Shape := ⟨3, ![8, 49152, 64]⟩

abbrev nBuf : Space → Nat
  | .hbm => 5
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S64x64, .f32⟩
  | .hbm, ⟨2, _⟩ => ⟨S8x49152x64, .f32⟩
  | .hbm, ⟨3, _⟩ => ⟨S8x49152x64, .f32⟩
  | .hbm, ⟨4, _⟩ => ⟨S8x3x1024x1024, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8x3x1024x1024_S8x49152x64 : S8x3x1024x1024.ShapeCasts S8x49152x64
  shapeCasts_S8x49152x64_S8x3x1024x1024 : S8x49152x64.ShapeCasts S8x3x1024x1024
  dot_S8x49152x64_S64x64_S8x49152x64_2_0_01_1_n_n_wf : DotDims.WF S8x49152x64 S64x64 S8x49152x64 [2] [0] [0, 1] [1] [] []

variable [Facts₀]

def dot_S8x49152x64_S64x64_S8x49152x64_2_0_01_1_n_n : DotDims S8x49152x64 S64x64 S8x49152x64 where
  lhsContracting := [2]
  rhsContracting := [0]
  lhsNonContracting := [0, 1]
  rhsNonContracting := [1]
  lhsBatch := []
  rhsBatch := []
  wf := dot_S8x49152x64_S64x64_S8x49152x64_2_0_01_1_n_n_wf

class Facts : Prop extends Facts₀ where

variable [Facts]
-- ==== Proof.KernelPayload.lean ====
/-
  What the kernel body stores, read at an index.

  The body loads its 8192 × 256 block `x0` of the flattened input and the whole 256 × 256 matrix `x1`, narrows
  both to bf16 (the identity on the extended reals), and stores their matrix product accumulated onto zero. So
  the stored value at row `p`, column `q` is the plain sum `∑ j < 256, x0[p, j] * x1[j, q]`.
-/
import proofs.«143657_j61340722921773_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's left operand is read at the output's row and the contraction index. -/
theorem lhs_row (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_contr (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand is read at the contraction index and the output's column. -/
theorem rhs_contr (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_col (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The stored value at `(p, q)` is `∑ j, x0[p, j] * x1[j, q]`. -/
theorem pay_apply (x0 : Vec Ideal S8192x256 .f32) (x1 : Vec Ideal S256x256 .f32) (p : Fin 8192) (q : Fin 256) :
    k0_pay1 (F := Ideal) x0 x1 (ix2 p q) = ∑ j : Fin 256, x0 (ix2 p j) * x1 (ix2 j q) := by
  unfold k0_pay1
  simp only [matmul]
  rw [Ideal.matmul_constant_zero_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 p q) ((ValueIdx.contrEquiv1 dot_S8192x256_S256x256_S8192x256_1_0_0_1_n_n 256 rfl rfl).symm k) = ix2 p k := funext fun a => Fin.ext (by
    match a with
    | ⟨0, _⟩ => exact lhs_row _ _
    | ⟨1, _⟩ => exact (lhs_contr _ _).trans hk)
  have er : dot_S8192x256_S256x256_S8192x256_1_0_0_1_n_n.rhsIdx (ix2 p q) ((ValueIdx.contrEquiv1 dot_S8192x256_S256x256_S8192x256_1_0_0_1_n_n 256 rfl rfl).symm k) = ix2 k q := funext fun a => Fin.ext (by
    match a with
    | ⟨0, _⟩ => exact (rhs_contr _ _).trans hk
    | ⟨1, _⟩ => exact rhs_col _ _)
  rw [el, er]
  simp only [truncf_apply, shapeCast_self]

end Cert.KernelIdeal.Body

end
-- ==== Proof.KernelBlocks.lean ====
/-
  From the grid's twelve blocks to the whole output array of the region.

  Grid point `t` stages rows `8192 t … 8192 t + 8191` of the flattened input and the whole 256 × 256 matrix, and
  writes back the same rows of the output. Row `r`, column `q` of what it writes is `∑ j, A[r, j] * B[j, q]` for the
  two staged arrays `A`, `B` as the region finds them — a function of the array index alone, the same at every
  point. The twelve blocks tile the 98304 rows (row `r` belongs to point `r / 8192`), so after the region the output
  array is that row-by-matrix product everywhere.
-/
import proofs.«143657_j61340722921773_2_alg».proof.Proof.Gen.KernelIdeal.Frame
import proofs.«143657_j61340722921773_2_alg».proof.Proof.KernelPayload
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Every row of `A` times the matrix `B`. -/
def rowsTimes (A : S98304x256.Idx → EReal) (B : S256x256.Idx → EReal) : S98304x256.Idx → EReal := fun i =>
  ∑ j : Fin 256, A (ix2 (⟨(i 0).val, (i 0).isLt⟩ : Fin 98304) j) * B (ix2 j (⟨(i 1).val, (i 1).isLt⟩ : Fin 256))

/-- The body's stored value at row `p`, column `q` of its block is entry `i` of the whole product, when row `p` of the
    staged block is row `i 0` of `A`, and column `q` of the staged matrix is column `i 1` of `B`. -/
theorem block_apply_coords (x0 : S8192x256.Idx → EReal) (x1 : S256x256.Idx → EReal) (A : S98304x256.Idx → EReal) (B : S256x256.Idx → EReal)
    (p : Fin 8192) (q : Fin 256) (i : S98304x256.Idx)
    (h0 : ∀ j : Fin 256, x0 (ix2 p j) = A (ix2 (⟨(i 0).val, (i 0).isLt⟩ : Fin 98304) j))
    (h1 : ∀ j : Fin 256, x1 (ix2 j q) = B (ix2 j (⟨(i 1).val, (i 1).isLt⟩ : Fin 256))) :
    k0_pay1 (F := Ideal) x0 x1 (ix2 p q) = rowsTimes A B i := by
  rw [Body.pay_apply]
  unfold rowsTimes
  exact Finset.sum_congr rfl fun j _ => by rw [h0 j, h1 j]

/-- The same at an index `y` of the block. -/
theorem block_apply (x0 : S8192x256.Idx → EReal) (x1 : S256x256.Idx → EReal) (A : S98304x256.Idx → EReal) (B : S256x256.Idx → EReal)
    (y : S8192x256.Idx) (i : S98304x256.Idx)
    (h0 : ∀ j : Fin 256, x0 (ix2 (⟨(y 0).val, (y 0).isLt⟩ : Fin 8192) j) = A (ix2 (⟨(i 0).val, (i 0).isLt⟩ : Fin 98304) j))
    (h1 : ∀ j : Fin 256, x1 (ix2 j (⟨(y 1).val, (y 1).isLt⟩ : Fin 256)) = B (ix2 j (⟨(i 1).val, (i 1).isLt⟩ : Fin 256))) :
    k0_pay1 (F := Ideal) x0 x1 y = rowsTimes A B i := by
  obtain ⟨p, q, rfl⟩ : ∃ (p : Fin 8192) (q : Fin 256), y = ix2 p q := ⟨y 0, y 1, eq_ix2 y⟩
  exact block_apply_coords x0 x1 A B p q i h0 h1

/-- The printed index maps over the twelve points: the input rows and the output rows move together, one block of
    8192 rows per point; nothing moves along the columns, and the matrix stays where it is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An element of the input block at point `t` is the staged array's element 8192 t rows further down. -/
theorem iblk0_apply (c : Dev nD) (t : Fin cfg0.N) (x : S8192x256.Idx) (k : S98304x256.Idx)
    (hk0 : (k 0).val = t.val * 8192 + (x 0).val) (hk1 : (k 1).val = (x 1).val) :
    (iblk m c 0 t : S8192x256.Idx → EReal) x = (V m c main_v0 : S98304x256.Idx → EReal) k := by
  obtain ⟨e0, e1, e2, e3, e4, e5⟩ := idx_facts t
  unfold iblk
  rw [View.read_apply]
  show V m c main_v0 _ = V m c main_v0 _
  congr 1
  funext a
  apply Fin.ext
  match a with
  | ⟨0, _⟩ => show win0_0.index t (0 : Fin 2) * 8192 + 1 * (x 0).val = (k 0).val; omega
  | ⟨1, _⟩ => show win0_0.index t (1 : Fin 2) * 256 + 1 * (x 1).val = (k 1).val; omega

/-- The matrix block at every point is the whole staged matrix. -/
theorem iblk1_apply (c : Dev nD) (t : Fin cfg0.N) (x : S256x256.Idx) (k : S256x256.Idx)
    (hk0 : (k 0).val = (x 0).val) (hk1 : (k 1).val = (x 1).val) :
    (iblk m c 1 t : S256x256.Idx → EReal) x = (V m c main_v7 : S256x256.Idx → EReal) k := by
  obtain ⟨e0, e1, e2, e3, e4, e5⟩ := idx_facts t
  unfold iblk
  rw [View.read_apply]
  show V m c main_v7 _ = V m c main_v7 _
  congr 1
  funext a
  apply Fin.ext
  match a with
  | ⟨0, _⟩ => show win0_1.index t (0 : Fin 2) * 256 + 1 * (x 0).val = (k 0).val; omega
  | ⟨1, _⟩ => show win0_1.index t (1 : Fin 2) * 256 + 1 * (x 1).val = (k 1).val; omega

/-- What point `t` writes back is block `t` of the whole product of the staged arrays. -/
theorem flushed_eq (c : Dev nD) (t : Fin cfg0.N) :
    (dats m 0 c).flushed 2 t = ((cfg0.win 2).blk t).view.read (Elt Ideal) (rowsTimes (V m c main_v0) (V m c main_v7)) := by
  show (cfg0.win 2).cut (grid0.coords t) ((dats m 0 c).after 2 t) = _
  rw [after0_2]
  unfold out0_2
  rw [View.canon_unit_zero zero_offsets]
  simp only [View.ld_unit_zero (S := S8192x256) zero_offsets, View.ld_unit_zero (S := S256x256) zero_offsets]
  obtain ⟨e0, e1, e2, e3, e4, e5⟩ := idx_facts t
  funext y
  rw [View.read_apply]
  refine block_apply _ _ _ _ y _ (fun j => ?_) (fun j => ?_)
  · refine iblk0_apply m c t _ _ ?_ ?_
    · show win0_2.index t (0 : Fin 2) * 8192 + 1 * (y 0).val = t.val * 8192 + (y 0).val
      omega
    · rfl
  · refine iblk1_apply m c t _ _ ?_ ?_
    · rfl
    · show win0_2.index t (1 : Fin 2) * 256 + 1 * (y 1).val = (y 1).val
      omega

/-- An index of the output array is in point `t`'s block iff each coordinate is in the block's range on its axis. -/
theorem mem_blk (t : Fin cfg0.N) (i : S98304x256.Idx) :
    i ∈ ((cfg0.win 2).blk t).view.set ↔ ∀ a : Fin 2, win0_2.index t a * S8192x256.size a ≤ (i a).val ∧ (i a).val < win0_2.index t a * S8192x256.size a + S8192x256.size a := by
  show i ∈ ((View.whole main_v8).slice (win0_2.rect t)).set ↔ _
  rw [View.set_slice_whole, Rect.mem_set_unit]
  exact Iff.rfl

/-- Every index of the output array is written back by the point its row falls to. -/
theorem cover (i : S98304x256.Idx) : ∃ t : Fin cfg0.N, (cfg0.win 2).flush t = true ∧ i ∈ ((cfg0.win 2).blk t).view.set := by
  have hi0 : (i 0).val < 98304 := (i 0).isLt
  have hi1 : (i 1).val < 256 := (i 1).isLt
  obtain ⟨t, htv⟩ : ∃ t : Fin cfg0.N, t.val = (i 0).val / 8192 :=
    ⟨⟨(i 0).val / 8192, lt_of_lt_of_eq (by omega : (i 0).val / 8192 < 12) N_0.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 256 ≤ (i 1).val ∧ (i 1).val < win0_2.index t (1 : Fin 2) * 256 + 256; omega

/-- The output array after the region: every row of the staged input times the staged matrix. -/
theorem final (c : Dev nD) : (dats m 0 c).arrAt 2 cfg0.N = rowsTimes (V m c main_v0) (V m c main_v7) :=
  (dats m 0 c).arrAt_eq_of_cover 2 (rowsTimes (V m c main_v0) (V m c main_v7)) (fun t _ => flushed_eq m c t) cover

end Cert.KernelIdeal.Blocks

end
-- ==== Proof.Spec.lean ====
/-
  The function both programs compute, stated once over the argument arrays.

  The input `x : f32[8, 3, 1024, 1024]` is read as one flat row-major sequence of 25,165,824 numbers, cut into
  consecutive chunks of 64. The basis `k : f32[64, 64]` multiplies every chunk from the right: the result at
  flat position `n`, which lies in chunk `n / 64` at offset `n % 64`, is

      G x k n = ∑ s < 64, x[(n / 64) * 64 + s] * k[s, n % 64]

  on the extended reals. `pos` is the row-major position of a four-coordinate index, `idxAt` the index at a
  position, and `eq_idxAt` says an index is determined by its position.
-/
import Idealize.ShloMosaic.PureOps.Ideal
import Idealize.ShloMosaic.Lib.ValueIdx

noncomputable section

namespace ChunkProduct

open Idealize.ShloMosaic Idealize.ShloMosaic.ValueIdx

/-- The input's and the result's shape. -/
abbrev SIn : Shape := ⟨4, ![8, 3, 1024, 1024]⟩
/-- The basis' shape. -/
abbrev SK : Shape := ⟨2, ![64, 64]⟩

/-- The row-major position of an index of the input. -/
def pos (i : SIn.Idx) : ℕ := (((i 0).val * 3 + (i 1).val) * 1024 + (i 2).val) * 1024 + (i 3).val

theorem pos_lt (i : SIn.Idx) : pos i < 25165824 := by
  have h0 : (i 0).val < 8 := (i 0).isLt
  have h1 : (i 1).val < 3 := (i 1).isLt
  have h2 : (i 2).val < 1024 := (i 2).isLt
  have h3 : (i 3).val < 1024 := (i 3).isLt
  unfold pos; omega

/-- The index of the input at row-major position `n`. -/
def idxAt (n : ℕ) (h : n < 25165824) : SIn.Idx :=
  ix4 ⟨n / 3145728, by omega⟩ ⟨n / 1048576 % 3, by omega⟩ ⟨n / 1024 % 1024, by omega⟩ ⟨n % 1024, by omega⟩

/-- An index is the one at its row-major position. -/
theorem eq_idxAt (k : SIn.Idx) (n : ℕ) (h : n < 25165824) (hk : pos k = n) : k = idxAt n h := by
  have h0 : (k 0).val < 8 := (k 0).isLt
  have h1 : (k 1).val < 3 := (k 1).isLt
  have h2 : (k 2).val < 1024 := (k 2).isLt
  have h3 : (k 3).val < 1024 := (k 3).isLt
  unfold pos at hk
  funext a
  apply Fin.ext
  match a with
  | ⟨0, _⟩ => show (k 0).val = n / 3145728; omega
  | ⟨1, _⟩ => show (k 1).val = n / 1048576 % 3; omega
  | ⟨2, _⟩ => show (k 2).val = n / 1024 % 1024; omega
  | ⟨3, _⟩ => show (k 3).val = n % 1024; omega

theorem pos_idxAt (n : ℕ) (h : n < 25165824) : pos (idxAt n h) = n := by
  show ((n / 3145728 * 3 + n / 1048576 % 3) * 1024 + n / 1024 % 1024) * 1024 + n % 1024 = n
  omega

/-- Offset `s` of the chunk holding position `pos i` is a position of the input. -/
theorem chunk_lt (i : SIn.Idx) (s : Fin 64) : pos i / 64 * 64 + s.val < 25165824 := by
  have := pos_lt i
  have := s.isLt
  omega

/-- The result: every chunk of 64 consecutive numbers of `x`, as a row vector, times the basis `k`. -/
def G (x : SIn.Idx → EReal) (k : SK.Idx → EReal) : SIn.Idx → EReal := fun i =>
  ∑ s : Fin 64, x (idxAt (pos i / 64 * 64 + s.val) (chunk_lt i s)) * k (ix2 s ⟨pos i % 64, Nat.mod_lt _ (by norm_num)⟩)

end ChunkProduct

end
-- ==== Proof.EntryArrays.lean ====
/-
  The two arrays the region stages, as the host lines before it leave them.

  `main_v0` is the input read as 98304 rows of 256 consecutive numbers: row `r`, column `j` is the number at
  flat position `r * 256 + j`. `main_v7` is the Kronecker product of the 4 × 4 identity with the 64 × 64 basis:
  row `j`, column `q` is `δ(j / 64, q / 64) * k[j % 64, q % 64]`, where the identity's entry is the comparison of
  two coordinate counters turned into the number one or zero.
-/
import proofs.«143657_j61340722921773_2_alg».proof.Proof.Gen.KernelIdeal.Frame
import proofs.«143657_j61340722921773_2_alg».proof.Proof.Spec
import Idealize.ShloMosaic.Lib.ValueIdx
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.ValueIdx Idealize.ShloMosaic.TcCoe
open Idealize.SL.Sem Idealize.ShloMosaic.StableHlo

/-- The input as rows of 256 consecutive numbers. -/
def flatIn (x : S8x3x1024x1024.Idx → EReal) : S98304x256.Idx → EReal :=
  shapeCast S98304x256 x shapeCasts_S8x3x1024x1024_S98304x256

/-- The 4 × 4 identity: the row counter compared with the column counter, as a number. -/
def eye4 : S4x4.Idx → EReal :=
  uitofp (F := Ideal) .f32 (cmpi .eq (addi (iotaInDim S4x4 32 0) (broadcastInDim S4x4 ![] bcast_S_S4x4 (constantI S_ 32 0#32))) (iotaInDim S4x4 32 1))

/-- The identity's entries times the basis' entries over [4, 64, 4, 64], laid out as 256 × 256. -/
def kron4 (k : S64x64.Idx → EReal) : S256x256.Idx → EReal :=
  shapeCast S256x256
    (mulf (F := Ideal) (φ := .f32)
      (broadcastInDim S4x64x4x64 ![0, 1, 2, 3] bcast_S4x1x4x1_S4x64x4x64_0_1_2_3
        (broadcastInDim S4x1x4x1 ![0, 2] bcast_S4x4_S4x1x4x1_0_2 eye4))
      (broadcastInDim S4x64x4x64 ![0, 1, 2, 3] bcast_S1x64x1x64_S4x64x4x64_0_1_2_3
        (broadcastInDim S1x64x1x64 ![1, 3] bcast_S64x64_S1x64x1x64_1_3 k)))
    shapeCasts_S4x64x4x64_S256x256

variable (m : (ℓ : Loc nD τ sig) → Buf (Elt Ideal) ℓ)

/-- The region finds the flattened input in `main_v0`. -/
theorem V_v0 (c : Dev nD) : (V m c main_v0 : S98304x256.Idx → EReal) = flatIn (m ((c : Thread nD τ).loc main_arg0)) := by
  dsimp only [Gen.V, Gen.V0]
  simp only [Gen.hostOps0, Gen.hostOps0_1, List.flatten_cons, List.flatten_nil, List.append_nil, List.cons_append, List.nil_append]
  after_results
  rfl

/-- The region finds the Kronecker product in `main_v7`. -/
theorem V_v7 (c : Dev nD) : (V m c main_v7 : S256x256.Idx → EReal) = kron4 (m ((c : Thread nD τ).loc main_arg1)) := by
  dsimp only [Gen.V, Gen.V0]
  simp only [Gen.hostOps0, Gen.hostOps0_1, List.flatten_cons, List.flatten_nil, List.append_nil, List.cons_append, List.nil_append]
  after_results
  rfl

/-- Row `r`, column `j` of the flattened input is the input at flat position `r * 256 + j`. -/
theorem flatIn_apply (x : S8x3x1024x1024.Idx → EReal) (r : Fin 98304) (j : Fin 256) (h : r.val * 256 + j.val < 25165824) :
    flatIn x (ix2 r j) = x (ChunkProduct.idxAt (r.val * 256 + j.val) h) := by
  unfold flatIn
  refine shapeCast_apply x _ (ix2 r j) (ChunkProduct.idxAt (r.val * 256 + j.val) h) ?_
  rewrite [Shape.rowMajor_val_four, Shape.rowMajor_val_two]
  show ChunkProduct.pos (ChunkProduct.idxAt (r.val * 256 + j.val) h) = r.val * 256 + j.val
  exact ChunkProduct.pos_idxAt _ h

/-- The identity's entry is one on the diagonal and zero off it. -/
theorem eye4_apply (a b : Fin 4) : eye4 (ix2 a b) = if a.val = b.val then (1 : EReal) else 0 := by
  have h : ∀ a b : Fin 4, IntOp.cmpi .eq (IntOp.addi (BitVec.ofNat 32 a.val) 0#32) (BitVec.ofNat 32 b.val) = if a.val = b.val then 1#1 else 0#1 := by decide
  show (((IntOp.cmpi .eq (IntOp.addi (BitVec.ofNat 32 a.val) 0#32) (BitVec.ofNat 32 b.val)).toNat : ℝ) : EReal) = _
  rw [h]
  split_ifs <;> simp

theorem bcastE_apply (Y : S4x1x4x1.Idx → EReal) (a : Fin 4) (s : Fin 64) (b : Fin 4) (f : Fin 64) :
    broadcastInDim S4x64x4x64 ![0, 1, 2, 3] bcast_S4x1x4x1_S4x64x4x64_0_1_2_3 Y (ix4 a s b f) = Y (ix4 a 0 b 0) :=
  broadcastInDim_apply _ _ Y _ _ (fun a' => by match a' with | ⟨0, _⟩ => rfl | ⟨1, _⟩ => rfl | ⟨2, _⟩ => rfl | ⟨3, _⟩ => rfl)

theorem bcastE2_apply (Y : S4x4.Idx → EReal) (a b : Fin 4) :
    broadcastInDim S4x1x4x1 ![0, 2] bcast_S4x4_S4x1x4x1_0_2 Y (ix4 a 0 b 0) = Y (ix2 a b) :=
  broadcastInDim_apply _ _ Y _ _ (fun a' => by match a' with | ⟨0, _⟩ => rfl | ⟨1, _⟩ => rfl)

theorem bcastK_apply (Y : S1x64x1x64.Idx → EReal) (a : Fin 4) (s : Fin 64) (b : Fin 4) (f : Fin 64) :
    broadcastInDim S4x64x4x64 ![0, 1, 2, 3] bcast_S1x64x1x64_S4x64x4x64_0_1_2_3 Y (ix4 a s b f) = Y (ix4 0 s 0 f) :=
  broadcastInDim_apply _ _ Y _ _ (fun a' => by match a' with | ⟨0, _⟩ => rfl | ⟨1, _⟩ => rfl | ⟨2, _⟩ => rfl | ⟨3, _⟩ => rfl)

theorem bcastK2_apply (Y : S64x64.Idx → EReal) (s f : Fin 64) :
    broadcastInDim S1x64x1x64 ![1, 3] bcast_S64x64_S1x64x1x64_1_3 Y (ix4 0 s 0 f) = Y (ix2 s f) :=
  broadcastInDim_apply _ _ Y _ _ (fun a' => by match a' with | ⟨0, _⟩ => rfl | ⟨1, _⟩ => rfl)

/-- Row `j`, column `q` of the Kronecker product: the identity's entry of the two blocks times the basis' entry of the
    two offsets. -/
theorem kron4_apply (k : S64x64.Idx → EReal) (j q : Fin 256) :
    kron4 k (ix2 j q) = (if j.val / 64 = q.val / 64 then (1 : EReal) else 0)
      * k (ix2 ⟨j.val % 64, Nat.mod_lt _ (by norm_num)⟩ ⟨q.val % 64, Nat.mod_lt _ (by norm_num)⟩) := by
  have hj := j.isLt
  have hq := q.isLt
  unfold kron4
  rw [shapeCast_apply _ _ (ix2 j q) (ix4 (⟨j.val / 64, by omega⟩ : Fin 4) (⟨j.val % 64, by omega⟩ : Fin 64) (⟨q.val / 64, by omega⟩ : Fin 4) (⟨q.val % 64, by omega⟩ : Fin 64))
    (by rewrite [Shape.rowMajor_val_four, Shape.rowMajor_val_two]
        show ((j.val / 64 * 64 + j.val % 64) * 4 + q.val / 64) * 64 + q.val % 64 = j.val * 256 + q.val
        omega)]
  rw [mulf_apply, bcastE_apply, bcastE2_apply, bcastK_apply, bcastK2_apply, eye4_apply]

end Cert.KernelIdeal.Entry

end
-- ==== Proof.LibBlockDiagSum.lean ====
/-
  A sum against a block-diagonal factor collapses to the one block it keeps.

  Over any additive commutative monoid with a multiplication and a one for which `0 * k = 0`, `x * 0 = 0` and
  `1 * k = k` (the three facts are hypotheses, so that no distributive law is asked for): index the
  summation range `Fin N` in blocks of `n` consecutive positions, so that position `j` lies in block
  `j / n` at offset `j % n`. If the factor `E j` is one on block `b` and zero on every other block, then
  `∑ j, X j * (E j * K (j % n))` is the sum over the offsets `s` of block `b` alone,
  `∑ s, X (b * n + s) * K s`: every other term is `X j * (0 * K _) = 0`. No cancellation is used, only
  `0 * k = 0`, `x * 0 = 0` and `1 * k = k`, so the statement holds on the extended reals as well.
-/
import Mathlib.Algebra.BigOperators.Group.Finset.Basic
import Mathlib.Data.Fintype.Basic
import Mathlib.Algebra.BigOperators.Fin

namespace BlockDiag

open Finset

/-- The sum over `Fin N` of `X j * (E j * K (j % n))`, where `E` is the indicator of block `b` (the positions
    `j` with `j / n = b`), is the sum over that block's `n` offsets of `X (b * n + s) * K s`. -/
theorem sum_blockDiag {M : Type*} [AddCommMonoid M] [Mul M] [One M]
    (zero_mul' : ∀ k : M, 0 * k = 0) (mul_zero' : ∀ x : M, x * 0 = 0) (one_mul' : ∀ k : M, 1 * k = k)
    {N n : ℕ} (hn : 0 < n) (b : ℕ)
    (hb : ∀ s : Fin n, b * n + s.val < N) (X E : Fin N → M) (K : Fin n → M)
    (hE : ∀ j : Fin N, E j = if j.val / n = b then 1 else 0) :
    ∑ j : Fin N, X j * (E j * K ⟨j.val % n, Nat.mod_lt _ hn⟩) = ∑ s : Fin n, X ⟨b * n + s.val, hb s⟩ * K s := by
  symm
  refine Finset.sum_of_injOn (fun s : Fin n => (⟨b * n + s.val, hb s⟩ : Fin N)) ?_ ?_ ?_ ?_
  · intro s _ s' _ h
    have h' : b * n + s.val = b * n + s'.val := congrArg Fin.val h
    exact Fin.ext (Nat.add_left_cancel h')
  · intro s _
    exact Finset.mem_coe.2 (Finset.mem_univ _)
  · intro j _ hj
    have hne : ¬ j.val / n = b := by
      intro h
      apply hj
      refine ⟨⟨j.val % n, Nat.mod_lt _ hn⟩, Finset.mem_coe.2 (Finset.mem_univ _), Fin.ext ?_⟩
      show b * n + j.val % n = j.val
      rw [← h, Nat.mul_comm]
      exact Nat.div_add_mod _ _
    rw [hE j, if_neg hne, zero_mul', mul_zero']
  · intro s _
    have h1 : (b * n + s.val) / n = b := by
      rw [Nat.mul_comm, Nat.mul_add_div hn, Nat.div_eq_of_lt s.isLt, Nat.add_zero]
    have h2 : (b * n + s.val) % n = s.val := by
      rw [Nat.mul_comm, Nat.mul_add_mod, Nat.mod_eq_of_lt s.isLt]
    have hE' : E ⟨b * n + s.val, hb s⟩ = 1 := by rw [hE]; exact if_pos h1
    have hK : (⟨(b * n + s.val) % n, Nat.mod_lt _ hn⟩ : Fin n) = s := Fin.ext h2
    show X ⟨b * n + s.val, hb s⟩ * K s = X ⟨b * n + s.val, hb s⟩ * (E ⟨b * n + s.val, hb s⟩ * K ⟨(b * n + s.val) % n, Nat.mod_lt _ hn⟩)
    rw [hE', hK, one_mul']

end BlockDiag
-- ==== Proof.KernelValue.lean ====
/-
  The kernel program's result as one function of its two arguments, and that this function is the specification.

  After the region the output array holds every row of the flattened input times `eye(4) ⊗ k`; the last host line
  reads that 98304 × 256 array back as [8, 3, 1024, 1024]. At flat position `n` this is row `n / 256`, column
  `n % 256`:

      ∑ j < 256, x[(n / 256) * 256 + j] * (δ(j / 64, (n % 256) / 64) * k[j % 64, n % 64]).

  The identity's entry kills every term outside the block `j / 64 = (n % 256) / 64`, and inside that block
  `(n / 256) * 256 + ((n % 256) / 64) * 64 = (n / 64) * 64`, so the sum is `∑ s < 64, x[(n / 64) * 64 + s] * k[s, n % 64]`.
-/
import proofs.«143657_j61340722921773_2_alg».proof.Proof.Gen.KernelIdeal.Frame
import proofs.«143657_j61340722921773_2_alg».proof.Proof.KernelBlocks
import proofs.«143657_j61340722921773_2_alg».proof.Proof.EntryArrays
import proofs.«143657_j61340722921773_2_alg».proof.Proof.LibBlockDiagSum
import proofs.«143657_j61340722921773_2_alg».proof.Proof.Spec
import Idealize.ShloMosaic.Lib.StableHlo.Run

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo

/-- The program's result of its arguments: the rows of the flattened input times the Kronecker product, read back
    in the input's shape. -/
def result (x : S8x3x1024x1024.Idx → EReal) (k : S64x64.Idx → EReal) : S8x3x1024x1024.Idx → EReal :=
  shapeCast S8x3x1024x1024 (Blocks.rowsTimes (Entry.flatIn x) (Entry.kron4 k)) shapeCasts_S98304x256_S8x3x1024x1024

theorem idxAt_congr {n n' : ℕ} (e : n = n') (h : n < 25165824) (h' : n' < 25165824) :
    ChunkProduct.idxAt n h = ChunkProduct.idxAt n' h' := by
  subst e; rfl

/-- The result is the specification. -/
theorem result_eq (x : S8x3x1024x1024.Idx → EReal) (k : S64x64.Idx → EReal) : result x k = ChunkProduct.G x k := by
  funext i
  have hp := ChunkProduct.pos_lt i
  obtain ⟨r, hr0⟩ : ∃ r : Fin 98304, r.val = ChunkProduct.pos i / 256 := ⟨⟨ChunkProduct.pos i / 256, by omega⟩, rfl⟩
  obtain ⟨q, hq0⟩ : ∃ q : Fin 256, q.val = ChunkProduct.pos i % 256 := ⟨⟨ChunkProduct.pos i % 256, by omega⟩, rfl⟩
  have hr : ∀ j : Fin 256, r.val * 256 + j.val < 25165824 := fun j => by have := j.isLt; omega
  have hb : ∀ s : Fin 64, q.val / 64 * 64 + s.val < 256 := fun s => by have := s.isLt; have := q.isLt; omega
  calc result x k i
      = Blocks.rowsTimes (Entry.flatIn x) (Entry.kron4 k) (ix2 r q) := by
        unfold result
        exact shapeCast_apply _ _ i (ix2 r q) (by
          rewrite [Shape.rowMajor_val_two, Shape.rowMajor_val_four]
          show r.val * 256 + q.val = ChunkProduct.pos i
          omega)
    _ = ∑ j : Fin 256, x (ChunkProduct.idxAt (r.val * 256 + j.val) (hr j))
          * ((if j.val / 64 = q.val / 64 then (1 : EReal) else 0)
            * k (ix2 ⟨j.val % 64, Nat.mod_lt _ (by norm_num)⟩ ⟨q.val % 64, Nat.mod_lt _ (by norm_num)⟩)) := by
        unfold Blocks.rowsTimes
        exact Finset.sum_congr rfl fun j _ => by
          show Entry.flatIn x (ix2 r j) * Entry.kron4 k (ix2 j q) = _
          rw [Entry.flatIn_apply x r j (hr j), Entry.kron4_apply]
    _ = ∑ s : Fin 64, x (ChunkProduct.idxAt (r.val * 256 + (q.val / 64 * 64 + s.val)) (hr ⟨q.val / 64 * 64 + s.val, hb s⟩))
          * k (ix2 s ⟨q.val % 64, Nat.mod_lt _ (by norm_num)⟩) :=
        BlockDiag.sum_blockDiag zero_mul mul_zero one_mul (by norm_num : 0 < 64) (q.val / 64) hb
          (fun j => x (ChunkProduct.idxAt (r.val * 256 + j.val) (hr j)))
          (fun j => if j.val / 64 = q.val / 64 then (1 : EReal) else 0)
          (fun s => k (ix2 s ⟨q.val % 64, Nat.mod_lt _ (by norm_num)⟩))
          (fun j => rfl)
    _ = ChunkProduct.G x k i := by
        unfold ChunkProduct.G
        refine Finset.sum_congr rfl fun s _ => ?_
        have hs := s.isLt
        have e1 : r.val * 256 + (q.val / 64 * 64 + s.val) = ChunkProduct.pos i / 64 * 64 + s.val := by omega
        have e2 : (⟨q.val % 64, Nat.mod_lt _ (by norm_num)⟩ : Fin 64) = ⟨ChunkProduct.pos i % 64, Nat.mod_lt _ (by norm_num)⟩ :=
          Fin.ext (by show q.val % 64 = ChunkProduct.pos i % 64; omega)
        rw [idxAt_congr e1 _ (ChunkProduct.chunk_lt i s), e2]

variable (m : (ℓ : Loc nD τ sig) → Buf (Elt Ideal) ℓ) (ρ : Dev nD → PrngReg)

/-- What the last host line leaves in the program's result buffer. -/
theorem tail_eq (c : Dev nD) :
    (Pipeline.afterTail₀ cfgs (dats m) 0 (V0 m) [hostOps1] c main_v9 : S8x3x1024x1024.Idx → EReal)
      = result (m ((c : Thread nD τ).loc main_arg0)) (m ((c : Thread nD τ).loc main_arg1)) := by
  unfold Pipeline.afterTail₀
  show StableHlo.after hostOps1 _ (Proc.devRef .tc main_v9) = _
  after_results
  rw [(Pipeline.withArrays_arr spec0 launch0.win.arr_inj c _ _ 2).trans (Blocks.final m c), Entry.V_v0, Entry.V_v7]
  rfl

/-- The kernel program's run: its result buffer ends at the specification of its arguments, which end unchanged. -/
theorem run : θ_run defs (onTc (τ := τ) (main (F := Ideal))) ⟨m, fun _ => 0, ρ⟩ fun r => ∀ c : Dev nD,
      r.2.mem ((c.tc : Thread nD τ).loc main_v9) = ChunkProduct.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v9 (Pipeline.mem_restRefs_of main_v9 (by decide) (by decide))).trans ((tail_eq m c).trans (result_eq _ _)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference computes the specification.

  The reference reads the input as [8, 49152, 64] (batch, chunk, offset), contracts the offset axis with the basis'
  first axis, and reads the product back as [8, 3, 1024, 1024]. All three shapes enumerate the same flat row-major
  sequence, so the result at flat position `n` is `∑ s, x[(n / 64) * 64 + s] * k[s, n % 64]`: chunk `n / 64` of the
  input times column `n % 64` of the basis.
-/
import proofs.«143657_j61340722921773_2_alg».proof.Proof.Gen.ReferenceIdeal.Read
import proofs.«143657_j61340722921773_2_alg».proof.Proof.Spec

noncomputable section

namespace Cert.ReferenceIdeal.RefValue

open Cert.ReferenceIdeal Cert.ReferenceIdeal.Read Idealize.ShloMosaic Idealize.ShloMosaic.ValueIdx

/-- The input element the reference multiplies at contraction index `s` for output index `i` sits at flat position
    `(pos i / 64) * 64 + s`. -/
theorem in_idx (i : S8x3x1024x1024.Idx) (s : Fin 64) :
    idx_main_v0 (lidx_main_v1 (idx_main_v2 i) s)
      = ChunkProduct.idxAt (ChunkProduct.pos i / 64 * 64 + s.val) (ChunkProduct.chunk_lt i s) := by
  refine ChunkProduct.eq_idxAt _ _ _ ?_
  have h0 : (i 0).val < 8 := (i 0).isLt
  have h1 : (i 1).val < 3 := (i 1).isLt
  have h2 : (i 2).val < 1024 := (i 2).isLt
  have h3 : (i 3).val < 1024 := (i 3).isLt
  have hs : s.val < 64 := s.isLt
  show ((((((((i 0).val * 3 + (i 1).val) * 1024 + (i 2).val) * 1024 + (i 3).val) / 3145728 * 49152 + ((((i 0).val * 3 + (i 1).val) * 1024 + (i 2).val) * 1024 + (i 3).val) / 64 % 49152) * 64 + s.val) / 3145728 * 3 + ((((((i 0).val * 3 + (i 1).val) * 1024 + (i 2).val) * 1024 + (i 3).val) / 3145728 * 49152 + ((((i 0).val * 3 + (i 1).val) * 1024 + (i 2).val) * 1024 + (i 3).val) / 64 % 49152) * 64 + s.val) / 1048576 % 3) * 1024 + ((((((i 0).val * 3 + (i 1).val) * 1024 + (i 2).val) * 1024 + (i 3).val) / 3145728 * 49152 + ((((i 0).val * 3 + (i 1).val) * 1024 + (i 2).val) * 1024 + (i 3).val) / 64 % 49152) * 64 + s.val) / 1024 % 1024) * 1024 + ((((((i 0).val * 3 + (i 1).val) * 1024 + (i 2).val) * 1024 + (i 3).val) / 3145728 * 49152 + ((((i 0).val * 3 + (i 1).val) * 1024 + (i 2).val) * 1024 + (i 3).val) / 64 % 49152) * 64 + s.val) % 1024 = ((((i 0).val * 3 + (i 1).val) * 1024 + (i 2).val) * 1024 + (i 3).val) / 64 * 64 + s.val
  omega

/-- The basis element it multiplies by is row `s`, column `pos i % 64`. -/
theorem k_idx (i : S8x3x1024x1024.Idx) (s : Fin 64) :
    ridx_main_v1 (idx_main_v2 i) s = ix2 s ⟨ChunkProduct.pos i % 64, Nat.mod_lt _ (by norm_num)⟩ := by
  funext a
  apply Fin.ext
  match a with
  | ⟨0, _⟩ => rfl
  | ⟨1, _⟩ => rfl

/-- The reference's result is the specification of its two arguments. -/
theorem ref_eq (x0 : S8x3x1024x1024.Idx → EReal) (x1 : S64x64.Idx → EReal) :
    val_main_v2 (F := Ideal) x0 x1 = ChunkProduct.G x0 x1 := by
  funext i
  rw [val_main_v2_apply, val_main_v1_apply]
  unfold ChunkProduct.G
  refine Finset.sum_congr rfl fun s _ => ?_
  rw [val_main_v0_apply, in_idx, k_idx]

end Cert.ReferenceIdeal.RefValue

end
-- ==== Proof.lean ====
/-
  The kernel multiplies every chunk of 64 consecutive numbers of the input, read as one flat row-major sequence, by a
  64 × 64 basis. It does so four chunks at a time: the input is viewed as rows of 256 numbers and multiplied by the
  256 × 256 block-diagonal matrix `eye(4) ⊗ basis`, in twelve blocks of 8192 rows, and the product is viewed back in the
  input's shape. The reference views the input as [8, 49152, 64], contracts the last axis with the basis, and views the
  product back.

  On the extended reals both are `∑ s < 64, x[(n / 64) * 64 + s] * k[s, n % 64]` at flat position `n`
  (`ChunkProduct.G`): the off-diagonal blocks of the Kronecker product are `0 * k = 0`, a product with zero is zero, and
  the diagonal blocks are `1 * k = k`, so the kernel's sum of 256 terms is the reference's sum of 64. Narrowing to bf16
  is the identity there, and only commutativity and associativity of the sum are used, so the finiteness of the inputs
  is not needed.

  The three programs terminate without a fault and leave their arguments unchanged; the idealization rewrote no
  operation of the kernel.
-/
import proofs.«143657_j61340722921773_2_alg».proof.Defs
import proofs.«143657_j61340722921773_2_alg».proof.Proof.Gen.Kernel
import proofs.«143657_j61340722921773_2_alg».proof.Proof.Gen.Kernel.Skeleton
import proofs.«143657_j61340722921773_2_alg».proof.Proof.Gen.Kernel.Launch
import proofs.«143657_j61340722921773_2_alg».proof.Proof.Gen.Kernel.Points
import proofs.«143657_j61340722921773_2_alg».proof.Proof.Gen.Kernel.Frame
import proofs.«143657_j61340722921773_2_alg».proof.Proof.Gen.KernelIdeal
import proofs.«143657_j61340722921773_2_alg».proof.Proof.Gen.KernelIdeal.Skeleton
import proofs.«143657_j61340722921773_2_alg».proof.Proof.Gen.KernelIdeal.Launch
import proofs.«143657_j61340722921773_2_alg».proof.Proof.Gen.KernelIdeal.Points
import proofs.«143657_j61340722921773_2_alg».proof.Proof.Gen.KernelIdeal.Frame
import proofs.«143657_j61340722921773_2_alg».proof.Proof.Gen.ReferenceIdeal
import proofs.«143657_j61340722921773_2_alg».proof.Proof.Gen.ReferenceIdeal.Run
import proofs.«143657_j61340722921773_2_alg».proof.Proof.Gen.ReferenceIdeal.Read
import proofs.«143657_j61340722921773_2_alg».proof.Proof.Gen.Pre_finite_inputs
import Idealize.ShloMosaic.Adequacy
import Idealize.ShloMosaic.Init
import proofs.«143657_j61340722921773_2_alg».proof.Proof.KernelValue
import proofs.«143657_j61340722921773_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the chunk-by-chunk product `ChunkProduct.G` of their arguments, which agree. -/
theorem algebraic : Cert.algebraic_KernelIdeal_ReferenceIdeal := by
  intro m ρ m' ρ' _ hagree
  refine ⟨fun c => ChunkProduct.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
